-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S2048 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S16384x2048 .f32) (main_arg1 : FVec F S2048x2048 .f32) (main_arg2 : FVec F S2048 .f32) (main_arg3 : FVec F S64 .f32) (main_arg4 : FVec F S64 .f32) (main_arg5 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16384x2048 : Shape := ⟨2, ![16384, 2048]⟩
abbrev S2048x2048 : Shape := ⟨2, ![2048, 2048]⟩
abbrev S2048 : Shape := ⟨1, ![2048]⟩
abbrev S64 : Shape := ⟨1, ![64]⟩
abbrev S1x2048 : Shape := ⟨2, ![1, 2048]⟩
abbrev S1x64 : Shape := ⟨2, ![1, 64]⟩
abbrev S256x2048 : Shape := ⟨2, ![256, 2048]⟩
abbrev S256x64x32 : Shape := ⟨3, ![256, 64, 32]⟩
abbrev S256x64 : Shape := ⟨2, ![256, 64]⟩
abbrev S256x64x1 : Shape := ⟨3, ![256, 64, 1]⟩
abbrev S1x64x1 : Shape := ⟨3, ![1, 64, 1]⟩

abbrev nBuf : Space → Nat
  | .hbm => 13
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S64, .f32⟩
  | .hbm, ⟨4, _⟩ => ⟨S64, .f32⟩
  | .hbm, ⟨5, _⟩ => ⟨S2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S1x64, .f32⟩
  | .hbm, ⟨10, _⟩ => ⟨S1x64, .f32⟩
  | .hbm, ⟨11, _⟩ => ⟨S1x2048, .f32⟩
  | .hbm, ⟨12, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S1x64, .f32⟩
  | .local _ .vmem, ⟨5, _⟩ => ⟨S1x64, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S2048x2048_S2048x2048_1_0 : S2048x2048.Transposes [1, 0] S2048x2048
  bitsLt_bf16_f32 : FTy.bits .bf16 < FTy.bits .f32
  shapeCasts_S2048_S1x2048 : S2048.ShapeCasts S1x2048
  shapeCasts_S64_S1x64 : S64.ShapeCasts S1x64
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S256x2048_S256x64x32 : S256x2048.ShapeCasts S256x64x32
  reduces_S256x64x32_S256x64 : S256x64x32.Reduces [2] S256x64
  shapeCasts_S256x64_S256x64x1 : S256x64.ShapeCasts S256x64x1
  broadcasts_S256x64x1_S256x64x32 : S256x64x1.Broadcasts S256x64x32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x64x1 : S1x64.ShapeCasts S1x64x1
  broadcasts_S1x64x1_S256x64x32 : S1x64x1.Broadcasts S256x64x32
  shapeCasts_S256x64x32_S256x2048 : S256x64x32.ShapeCasts S256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S16384x2048.size a
  hwx0_6 : ∀ i : grid0.Coords, EltTy.bits .f32 = 32 ∨ (Rect.block (s := S16384x2048) S256x2048.size (cc0_transform_6 i) (hinb0_6 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S64 : Shape := ⟨1, ![64]⟩
abbrev S1x2048 : Shape := ⟨2, ![1, 2048]⟩
abbrev S16384x64x32 : Shape := ⟨3, ![16384, 64, 32]⟩
abbrev S_ : Shape := ⟨0, ![]⟩
abbrev S16384x64 : Shape := ⟨2, ![16384, 64]⟩
abbrev S16384x64x1 : Shape := ⟨3, ![16384, 64, 1]⟩
abbrev S1x64x1 : Shape := ⟨3, ![1, 64, 1]⟩

abbrev nBuf : Space → Nat
  | .hbm => 62
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S64, .f32⟩
  | .hbm, ⟨4, _⟩ => ⟨S64, .f32⟩
  | .hbm, ⟨5, _⟩ => ⟨S2048, .f32⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S16384x64x32, .f32⟩
  | .hbm, ⟨11, _⟩ => ⟨S_, .f32⟩
  | .hbm, ⟨12, _⟩ => ⟨S16384x64, .f32⟩
  | .hbm, ⟨13, _⟩ => ⟨S16384x64x1, .f32⟩
  | .hbm, ⟨14, _⟩ => ⟨S_, .f32⟩
  | .hbm, ⟨15, _⟩ => ⟨S16384x64x1, .f32⟩
  | .hbm, ⟨16, _⟩ => ⟨S16384x64x1, .f32⟩
  | .hbm, ⟨17, _⟩ => ⟨S16384x64x32, .f32⟩
  | .hbm, ⟨18, _⟩ => ⟨S16384x64x32, .f32⟩
  | .hbm, ⟨19, _⟩ => ⟨S16384x64x32, .f32⟩
  | .hbm, ⟨20, _⟩ => ⟨S_, .f32⟩
  | .hbm, ⟨21, _⟩ => ⟨S16384x64, .f32⟩
  | .hbm, ⟨22, _⟩ => ⟨S16384x64x1, .f32⟩
  | .hbm, ⟨23, _⟩ => ⟨S_, .f32⟩
  | .hbm, ⟨24, _⟩ => ⟨S16384x64x1, .f32⟩
  | .hbm, ⟨25, _⟩ => ⟨S16384x64x1, .f32⟩
  | .hbm, ⟨26, _⟩ => ⟨S16384x64x32, .f32⟩
  | .hbm, ⟨27, _⟩ => ⟨S16384x64x32, .f32⟩
  | .hbm, ⟨28, _⟩ => ⟨S_, .f32⟩
  | .hbm, ⟨29, _⟩ => ⟨S16384x64x1, .f32⟩
  | .hbm, ⟨30, _⟩ => ⟨S16384x64x1, .f32⟩
  | .hbm, ⟨31, _⟩ => ⟨S16384x64x1, .f32⟩
  | .hbm, ⟨32, _⟩ => ⟨S16384x64x32, .f32⟩
  | .hbm, ⟨33, _⟩ => ⟨S16384x64x32, .f32⟩
  | .hbm, ⟨34, _⟩ => ⟨S1x64x1, .f32⟩
  | .hbm, ⟨35, _⟩ => ⟨S16384x64x32, .f32⟩
  | .hbm, ⟨36, _⟩ => ⟨S16384x64x32, .f32⟩
  | .hbm, ⟨37, _⟩ => ⟨S1x64x1, .f32⟩
  | .hbm, ⟨38, _⟩ => ⟨S16384x64x32, .f32⟩
  | .hbm, ⟨39, _⟩ => ⟨S16384x64x32, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S_, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S1x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S_, .f32⟩
  | .hbm, ⟨56, _⟩ => ⟨S16384x2048, .f32⟩
  | .hbm, ⟨57, _⟩ => ⟨S16384x2048, .f32⟩
  | .hbm, ⟨58, _⟩ => ⟨S_, .f32⟩
  | .hbm, ⟨59, _⟩ => ⟨S16384x2048, .f32⟩
  | .hbm, ⟨60, _⟩ => ⟨S16384x2048, .f32⟩
  | .hbm, ⟨61, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  shapeCasts_S16384x2048_S16384x64x32 : S16384x2048.ShapeCasts S16384x64x32
  reducesTo_S16384x64x32_S16384x64_d2 : S16384x64x32.ReducesTo [2] S16384x64
  h_S_ : 0 < S_.numel
  bcast_S16384x64_S16384x64x1_0_1 : S16384x64.BroadcastsInDim S16384x64x1 (![0, 1] : Fin 2 → Fin S16384x64x1.rank)
  bcast_S_S16384x64x1 : S_.BroadcastsInDim S16384x64x1 (![] : Fin 0 → Fin S16384x64x1.rank)
  bcast_S16384x64x1_S16384x64x32_0_1_2 : S16384x64x1.BroadcastsInDim S16384x64x32 (![0, 1, 2] : Fin 3 → Fin S16384x64x32.rank)
  bcast_S64_S1x64x1_1 : S64.BroadcastsInDim S1x64x1 (![1] : Fin 1 → Fin S1x64x1.rank)
  bcast_S1x64x1_S16384x64x32_0_1_2 : S1x64x1.BroadcastsInDim S16384x64x32 (![0, 1, 2] : Fin 3 → Fin S16384x64x32.rank)
  shapeCasts_S16384x64x32_S16384x2048 : S16384x64x32.ShapeCasts S16384x2048
  bcast_S_S16384x2048 : S_.BroadcastsInDim S16384x2048 (![] : Fin 0 → Fin S16384x2048.rank)
  dot_S16384x2048_S2048x2048_S16384x2048_1_1_0_0_n_n_wf : DotDims.WF S16384x2048 S2048x2048 S16384x2048 [1] [1] [0] [0] [] []

variable [Facts₀]

def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf

class Facts : Prop extends Facts₀ where

variable [Facts]
-- ==== Proof.GroupNorm.lean ====
/-
  The function both programs compute, on the extended reals.

  A row of the product `x · Wᵀ + b` has 2048 entries, read as 64 groups of 32 consecutive columns: column
  `n` lies in group `n / 32` at lane `n % 32`, and group `g`, lane `j` is column `32 g + j`. Each group
  `u` is normalised by its own mean `(Σ u) / 32` and its own (biased) variance `(Σ (u − mean)²) / 32`:
  `(u j − mean) · rsqrt (variance + ε) · γ + β`, with one scale `γ` and one shift `β` per group. The
  result `a` is then passed through `silu : a ↦ a · σ(a)` twice, multiplied by the column's weight `μ` in between:
  `silu (silu a · μ)`, where `σ` is the logistic function `1 / (1 + e^(−a))`.

  The divisor `32` and `ε` are kept as the words the two programs carry: they are the same words on both
  sides, so their values are never needed. Every operation is the exact one on the extended reals
  (`Ideal.div`, `Ideal.rsqrt`, `Ideal.logistic`), so nothing here asks an entry to be finite.
-/
import Idealize.ShloMosaic.PureOps.Ideal
import Idealize.ShloMosaic.PureOps.Ideal.Laws
import Idealize.ShloMosaic.Lib.ValueIdx

noncomputable section

namespace Cert.GroupNorm

open Idealize.ShloMosaic Idealize.ShloMosaic.ValueIdx

/-! ## Columns, groups and lanes -/

/-- Group `g`, lane `j` is column `32 g + j`. -/
def col (g : Fin 64) (j : Fin 32) : Fin 2048 := ⟨g.val * 32 + j.val, by have := g.isLt; have := j.isLt; omega⟩
/-- Column `n` lies in group `n / 32` … -/
def grp (n : Fin 2048) : Fin 64 := ⟨n.val / 32, by have := n.isLt; omega⟩
/-- … at lane `n % 32`. -/
def lane (n : Fin 2048) : Fin 32 := ⟨n.val % 32, Nat.mod_lt _ (by decide)⟩

theorem col_val (g : Fin 64) (j : Fin 32) : (col g j).val = g.val * 32 + j.val := rfl
theorem grp_val (n : Fin 2048) : (grp n).val = n.val / 32 := rfl
theorem lane_val (n : Fin 2048) : (lane n).val = n.val % 32 := rfl

theorem col_grp_lane (n : Fin 2048) : col (grp n) (lane n) = n :=
  Fin.ext (by rw [col_val, grp_val, lane_val]; omega)
theorem grp_col (g : Fin 64) (j : Fin 32) : grp (col g j) = g :=
  Fin.ext (by rw [grp_val, col_val]; have := j.isLt; omega)
theorem lane_col (g : Fin 64) (j : Fin 32) : lane (col g j) = j :=
  Fin.ext (by rw [lane_val, col_val]; have := j.isLt; omega)

/-! ## One group, normalised -/

/-- The divisor of both means, the word of `32.0`. -/
abbrev groupSize : EReal := Ideal.ofBits .f32 0x42000000#32
/-- The variance's `ε`, the word both programs add. -/
abbrev eps : EReal := Ideal.ofBits .f32 0x3727C5AC#32

/-- A group's mean. -/
def mean (u : Fin 32 → EReal) : EReal := Ideal.div (∑ j : Fin 32, u j) groupSize
/-- A group's entries, its mean taken off. -/
def centred (u : Fin 32 → EReal) (j : Fin 32) : EReal := u j - mean u
/-- A group's biased variance. -/
def variance (u : Fin 32 → EReal) : EReal := Ideal.div (∑ j : Fin 32, centred u j * centred u j) groupSize
/-- A group's entry normalised, scaled by `γ` and shifted by `β`. -/
def normed (u : Fin 32 → EReal) (γ β : EReal) (j : Fin 32) : EReal :=
  centred u j * Ideal.rsqrt (variance u + eps) * γ + β

/-! ## SiLU, twice -/

/-- `a · σ(a)`. -/
def silu (a : EReal) : EReal := a * Ideal.logistic a
/-- SiLU, scale by the column's weight, SiLU again. -/
def siluTwice (a μ : EReal) : EReal := silu (silu a * μ)

/-! ## A row, a block, the array -/

/-- Entry `n` of a row's result, from the row `y` of `x · Wᵀ + b`, the groups' scales and shifts and the columns'
    weights. -/
def rowOut (y : Fin 2048 → EReal) (γ β : Fin 64 → EReal) (μ : Fin 2048 → EReal) (n : Fin 2048) : EReal :=
  siluTwice (normed (fun j => y (col (grp n) j)) (γ (grp n)) (β (grp n)) (lane n)) (μ n)

/-- Entry `n` of `x · Wᵀ + b` for one row `x`, the weight given as the kernel holds it (`wt k n = W n k`). -/
def affine (x : Fin 2048 → EReal) (wt : Fin 2048 → Fin 2048 → EReal) (b : Fin 2048 → EReal) (n : Fin 2048) : EReal :=
  (∑ k : Fin 2048, x k * wt k n) + b n

/-- What a grid point leaves at row `p`, column `n` of its 256-row block, from the blocks it is handed: 256 rows of
    `x`, the transposed weight whole, and the bias, the scales, the shifts and the weights each as one row. -/
def blockOut (P0 : (⟨2, ![256, 2048]⟩ : Shape).Idx → EReal) (P1 : (⟨2, ![2048, 2048]⟩ : Shape).Idx → EReal)
    (P2 : (⟨2, ![1, 2048]⟩ : Shape).Idx → EReal) (P3 P4 : (⟨2, ![1, 64]⟩ : Shape).Idx → EReal)
    (P5 : (⟨2, ![1, 2048]⟩ : Shape).Idx → EReal) (p : Fin 256) (n : Fin 2048) : EReal :=
  rowOut (affine (fun k => P0 (ix2 p k)) (fun k n' => P1 (ix2 k n')) (fun n' => P2 (ix2 (0 : Fin 1) n')))
    (fun g => P3 (ix2 (0 : Fin 1) g)) (fun g => P4 (ix2 (0 : Fin 1) g)) (fun n' => P5 (ix2 (0 : Fin 1) n')) n

/-- Row `r`, column `n` of the whole result, from the six argument arrays. -/
def fusedAt (X : (⟨2, ![16384, 2048]⟩ : Shape).Idx → EReal) (W : (⟨2, ![2048, 2048]⟩ : Shape).Idx → EReal)
    (B : (⟨1, ![2048]⟩ : Shape).Idx → EReal) (Γ Β : (⟨1, ![64]⟩ : Shape).Idx → EReal)
    (Μ : (⟨1, ![2048]⟩ : Shape).Idx → EReal) (r : Fin 16384) (n : Fin 2048) : EReal :=
  rowOut (affine (fun k => X (ix2 r k)) (fun k n' => W (ix2 n' k)) (fun n' => B (ix1 n')))
    (fun g => Γ (ix1 g)) (fun g => Β (ix1 g)) (fun n' => Μ (ix1 n')) n

/-- The whole result as one function of the array index. -/
def fused (X : (⟨2, ![16384, 2048]⟩ : Shape).Idx → EReal) (W : (⟨2, ![2048, 2048]⟩ : Shape).Idx → EReal)
    (B : (⟨1, ![2048]⟩ : Shape).Idx → EReal) (Γ Β : (⟨1, ![64]⟩ : Shape).Idx → EReal)
    (Μ : (⟨1, ![2048]⟩ : Shape).Idx → EReal) : (⟨2, ![16384, 2048]⟩ : Shape).Idx → EReal :=
  fun i => fusedAt X W B Γ Β Μ ⟨(i 0).val, (i 0).isLt⟩ ⟨(i 1).val, (i 1).isLt⟩

theorem fused_ix2 (X : (⟨2, ![16384, 2048]⟩ : Shape).Idx → EReal) (W : (⟨2, ![2048, 2048]⟩ : Shape).Idx → EReal)
    (B : (⟨1, ![2048]⟩ : Shape).Idx → EReal) (Γ Β : (⟨1, ![64]⟩ : Shape).Idx → EReal)
    (Μ : (⟨1, ![2048]⟩ : Shape).Idx → EReal) (r : Fin 16384) (n : Fin 2048) :
    fused X W B Γ Β Μ (ix2 r n) = fusedAt X W B Γ Β Μ r n := rfl

/-! ## The logistic function, as the host spells it -/

/-- `1 / (1 + e^(−a))` with the host's `1.0` words is the logistic function: the word of `1.0` is the number `1`. -/
theorem logistic_expanded (a : EReal) :
    Ideal.div (Ideal.ofBits .f32 0x3F800000#32) (Ideal.ofBits .f32 0x3F800000#32 + Ideal.exp (-a)) = Ideal.logistic a := by
  have h1 : Ideal.ofBits .f32 0x3F800000#32 = 1 := IdealRules.sign_bit.ideal_onePat .f32
  rw [h1]; rfl

end Cert.GroupNorm

end
-- ==== Proof.Reference.lean ====
/-
  The reference computes `GroupNorm.fused`.

  Its run is read one operation at a time (the generated read-at-an-index lemmas), and the stages are met in the
  order of the mathematics: a row of `x · Wᵀ + b`; the same row seen as 64 groups of 32 (a reshape: group `g`, lane
  `j` is column `32 g + j`); a group's sum, mean and centred entries; its variance; the normalised, scaled and shifted
  entry; the row flattened back (column `n` is group `n / 32`, lane `n % 32`); and SiLU applied twice, where the host spells the
  logistic function as `1 / (1 + e^(−a))`. The host's sums start from the zero word, which is the number `0`.
-/
import proofs.«164858_j3556232922214_2_alg».proof.Proof.Gen.ReferenceIdeal.Read
import proofs.«164858_j3556232922214_2_alg».proof.Proof.GroupNorm

noncomputable section

namespace Cert.ReferenceIdeal.RefValue

open Cert.ReferenceIdeal Cert.ReferenceIdeal.Gen Cert.ReferenceIdeal.Read Cert.GroupNorm
open Idealize.ShloMosaic Idealize.ShloMosaic.ValueIdx

variable (x0 : (⟨S16384x2048, .f32⟩ : BufTy).Contents (Elt Ideal)) (x1 : (⟨S2048x2048, .f32⟩ : BufTy).Contents (Elt Ideal))
  (x2 : (⟨S2048, .f32⟩ : BufTy).Contents (Elt Ideal)) (x3 x4 : (⟨S64, .f32⟩ : BufTy).Contents (Elt Ideal))
  (x5 : (⟨S2048, .f32⟩ : BufTy).Contents (Elt Ideal))

/-- Row `r` of `x · Wᵀ + b`: the reference contracts `x`'s columns with `W`'s columns. -/
abbrev row (r : Fin 16384) : Fin 2048 → EReal :=
  affine (fun k => x0 (ix2 r k)) (fun k n' => x1 (ix2 n' k)) (fun n' => x2 (ix1 n'))

/-- Group `g` of that row. -/
abbrev group (r : Fin 16384) (g : Fin 64) : Fin 32 → EReal := fun j => row x0 x1 x2 r (col g j)

/-- The product plus the bias, at row `r`, column `n`. -/
theorem product_bias (r : Fin 16384) (n : Fin 2048) :
    val_main_v3 (F := Ideal) x0 x1 x2 (ix2 r n) = row x0 x1 x2 r n := by
  rw [val_main_v3_apply, val_main_v0_apply, val_main_v2_apply, val_main_v1_apply]
  have e0 : ∀ k : Fin 2048, lidx_main_v0 (ix2 r n) k = ix2 r k := fun k => funext fun a => Fin.ext (by
    match a with | ⟨0, _⟩ => rfl | ⟨1, _⟩ => rfl)
  have e1 : ∀ k : Fin 2048, ridx_main_v0 (ix2 r n) k = ix2 n k := fun k => funext fun a => Fin.ext (by
    match a with | ⟨0, _⟩ => rfl | ⟨1, _⟩ => rfl)
  have e2 : idx_main_v1 (idx_main_v2 (ix2 r n)) = ix1 n := funext fun a => Fin.ext (by
    match a with | ⟨0, _⟩ => rfl)
  simp only [e0, e1, e2]
  rfl

/-- The reshape into groups: group `g`, lane `j` of row `r` is column `32 g + j`. -/
theorem grouped (r : Fin 16384) (g : Fin 64) (j : Fin 32) :
    val_main_v4 (F := Ideal) x0 x1 x2 (ix3 r g j) = group x0 x1 x2 r g j := by
  rw [val_main_v4_apply]
  have e : idx_main_v4 (ix3 r g j) = ix2 r (col g j) := funext fun a => Fin.ext (by
    have hr := r.isLt; have hg := g.isLt; have hj := j.isLt
    match a with
    | ⟨0, _⟩ => show ((r.val * 64 + g.val) * 32 + j.val) / 2048 = r.val; omega
    | ⟨1, _⟩ => show ((r.val * 64 + g.val) * 32 + j.val) % 2048 = g.val * 32 + j.val; omega)
  rw [e]
  exact product_bias x0 x1 x2 r (col g j)

/-- A group's sum: the host starts from the zero word. -/
theorem group_sum (r : Fin 16384) (g : Fin 64) :
    val_main_v5 (F := Ideal) x0 x1 x2 (ix2 r g) = ∑ j : Fin 32, group x0 x1 x2 r g j := by
  rw [val_main_v5_apply]
  have e : ∀ k : Fin 32, idx_main_v5 (ix2 r g) k = ix3 r g k := fun k => funext fun a => Fin.ext (by
    match a with | ⟨0, _⟩ => rfl | ⟨1, _⟩ => rfl | ⟨2, _⟩ => rfl)
  simp only [e, grouped]
  show Ideal.ofBits .f32 0x00000000#32 + _ = _
  rw [Ideal.ofBits_zero_f32, zero_add]

/-- A group's mean, kept on a unit axis. -/
theorem group_mean (r : Fin 16384) (g : Fin 64) :
    val_main_v8 (F := Ideal) x0 x1 x2 (ix3 r g (0 : Fin 1)) = mean (group x0 x1 x2 r g) := by
  rw [val_main_v8_apply, val_main_v6_apply, val_main_v7_apply, val_main_cst_0_apply]
  have e : idx_main_v6 (ix3 r g (0 : Fin 1)) = ix2 r g := funext fun a => Fin.ext (by
    match a with | ⟨0, _⟩ => rfl | ⟨1, _⟩ => rfl)
  rw [e, group_sum]
  rfl

/-- A group's entries with the mean taken off: the reference subtracts it twice over, once for the variance … -/
theorem group_centred (r : Fin 16384) (g : Fin 64) (j : Fin 32) :
    val_main_v10 (F := Ideal) x0 x1 x2 (ix3 r g j) = centred (group x0 x1 x2 r g) j := by
  rw [val_main_v10_apply, val_main_v9_apply]
  have e : idx_main_v9 (ix3 r g j) = ix3 r g (0 : Fin 1) := funext fun a => Fin.ext (by
    match a with | ⟨0, _⟩ => rfl | ⟨1, _⟩ => rfl | ⟨2, _⟩ => rfl)
  rw [e, group_mean, grouped]
  rfl

/-- … and once for the normalised entry. -/
theorem group_centred' (r : Fin 16384) (g : Fin 64) (j : Fin 32) :
    val_main_v17 (F := Ideal) x0 x1 x2 (ix3 r g j) = centred (group x0 x1 x2 r g) j := by
  rw [val_main_v17_apply, val_main_v16_apply]
  have e : idx_main_v16 (ix3 r g j) = ix3 r g (0 : Fin 1) := funext fun a => Fin.ext (by
    match a with | ⟨0, _⟩ => rfl | ⟨1, _⟩ => rfl | ⟨2, _⟩ => rfl)
  rw [e, group_mean, grouped]
  rfl

/-- A group's variance, kept on a unit axis. -/
theorem group_variance (r : Fin 16384) (g : Fin 64) :
    val_main_v15 (F := Ideal) x0 x1 x2 (ix3 r g (0 : Fin 1)) = variance (group x0 x1 x2 r g) := by
  rw [val_main_v15_apply, val_main_v13_apply, val_main_v14_apply, val_main_cst_2_apply]
  have e : idx_main_v13 (ix3 r g (0 : Fin 1)) = ix2 r g := funext fun a => Fin.ext (by
    match a with | ⟨0, _⟩ => rfl | ⟨1, _⟩ => rfl)
  rw [e, val_main_v12_apply]
  have e' : ∀ k : Fin 32, idx_main_v12 (ix2 r g) k = ix3 r g k := fun k => funext fun a => Fin.ext (by
    match a with | ⟨0, _⟩ => rfl | ⟨1, _⟩ => rfl | ⟨2, _⟩ => rfl)
  simp only [e', val_main_v11_apply, group_centred]
  show Ideal.div (Ideal.ofBits .f32 0x00000000#32 + _) _ = _
  rw [Ideal.ofBits_zero_f32, zero_add]
  rfl

/-- The normalised entry, scaled and shifted by its group's `γ` and `β`. -/
theorem group_normed (r : Fin 16384) (g : Fin 64) (j : Fin 32) :
    val_main_v28 (F := Ideal) x0 x1 x2 x3 x4 (ix3 r g j) = normed (group x0 x1 x2 r g) (x3 (ix1 g)) (x4 (ix1 g)) j := by
  rw [val_main_v28_apply, val_main_v25_apply, val_main_v22_apply, val_main_v21_apply, val_main_v20_apply,
    val_main_v19_apply, val_main_v18_apply, val_main_cst_3_apply, val_main_v24_apply, val_main_v23_apply,
    val_main_v27_apply, val_main_v26_apply]
  have e : idx_main_v21 (ix3 r g j) = ix3 r g (0 : Fin 1) := funext fun a => Fin.ext (by
    match a with | ⟨0, _⟩ => rfl | ⟨1, _⟩ => rfl | ⟨2, _⟩ => rfl)
  have eγ : idx_main_v23 (idx_main_v24 (ix3 r g j)) = ix1 g := funext fun a => Fin.ext (by
    match a with | ⟨0, _⟩ => rfl)
  have eβ : idx_main_v26 (idx_main_v27 (ix3 r g j)) = ix1 g := funext fun a => Fin.ext (by
    match a with | ⟨0, _⟩ => rfl)
  rw [e, eγ, eβ, group_variance, group_centred']
  rfl

/-- The row flattened back: column `n` is lane `n % 32` of group `n / 32`. -/
theorem flattened (r : Fin 16384) (n : Fin 2048) :
    val_main_v29 (F := Ideal) x0 x1 x2 x3 x4 (ix2 r n)
      = normed (group x0 x1 x2 r (grp n)) (x3 (ix1 (grp n))) (x4 (ix1 (grp n))) (lane n) := by
  rw [val_main_v29_apply]
  have e : idx_main_v29 (ix2 r n) = ix3 r (grp n) (lane n) := funext fun a => Fin.ext (by
    have hr := r.isLt; have hn := n.isLt
    match a with
    | ⟨0, _⟩ => show (r.val * 2048 + n.val) / 2048 = r.val; omega
    | ⟨1, _⟩ => show (r.val * 2048 + n.val) / 32 % 64 = n.val / 32; omega
    | ⟨2, _⟩ => show (r.val * 2048 + n.val) % 32 = n.val % 32; omega)
  rw [e]
  exact group_normed x0 x1 x2 x3 x4 r (grp n) (lane n)

/-- The first SiLU: the host's `a · (1 / (1 + e^(−a)))` is `silu a`. -/
theorem silu_once (r : Fin 16384) (n : Fin 2048) :
    val_main_v36 (F := Ideal) x0 x1 x2 x3 x4 (ix2 r n)
      = silu (normed (group x0 x1 x2 r (grp n)) (x3 (ix1 (grp n))) (x4 (ix1 (grp n))) (lane n)) := by
  rw [val_main_v36_apply, val_main_v35_apply, val_main_v34_apply, val_main_cst_5_apply, val_main_v33_apply,
    val_main_v32_apply, val_main_cst_4_apply, val_main_v31_apply, val_main_v30_apply, flattened]
  show _ * Ideal.div (Ideal.ofBits .f32 0x3F800000#32) (Ideal.ofBits .f32 0x3F800000#32 + Ideal.exp (-_)) = _
  rw [logistic_expanded]
  rfl

/-- The column's weight between the two SiLUs. -/
theorem weighted (r : Fin 16384) (n : Fin 2048) :
    val_main_v39 (F := Ideal) x0 x1 x2 x3 x4 x5 (ix2 r n)
      = silu (normed (group x0 x1 x2 r (grp n)) (x3 (ix1 (grp n))) (x4 (ix1 (grp n))) (lane n)) * x5 (ix1 n) := by
  rw [val_main_v39_apply, val_main_v38_apply, val_main_v37_apply, silu_once]
  have e : idx_main_v37 (idx_main_v38 (ix2 r n)) = ix1 n := funext fun a => Fin.ext (by
    match a with | ⟨0, _⟩ => rfl)
  rw [e]
  rfl

/-- The second SiLU: the reference's last stage at row `r`, column `n` is the specification there. -/
theorem result_at (r : Fin 16384) (n : Fin 2048) :
    val_main_v46 (F := Ideal) x0 x1 x2 x3 x4 x5 (ix2 r n) = fusedAt x0 x1 x2 x3 x4 x5 r n := by
  rw [val_main_v46_apply, val_main_v45_apply, val_main_v44_apply, val_main_cst_7_apply, val_main_v43_apply,
    val_main_v42_apply, val_main_cst_6_apply, val_main_v41_apply, val_main_v40_apply, weighted]
  show _ * Ideal.div (Ideal.ofBits .f32 0x3F800000#32) (Ideal.ofBits .f32 0x3F800000#32 + Ideal.exp (-_)) = _
  rw [logistic_expanded]
  rfl

/-- The reference's result array is the specification of its arguments. -/
theorem result_eq : val_main_v46 (F := Ideal) x0 x1 x2 x3 x4 x5 = fused x0 x1 x2 x3 x4 x5 := by
  funext i
  obtain ⟨r, n, rfl⟩ : ∃ (r : Fin 16384) (n : Fin 2048), i = ix2 r n := ⟨i 0, i 1, eq_ix2 i⟩
  rw [fused_ix2]
  exact result_at x0 x1 x2 x3 x4 x5 r n

end Cert.ReferenceIdeal.RefValue

end
-- ==== Proof.LibGroupAxes.lean ====
/-
  A trailing axis read as groups of lanes, at an index.

  An array `[A, N]` whose second axis is `B` groups of `C` consecutive entries (`N = B · C`) is the array
  `[A, B, C]`: group `g`, lane `j` of row `p` is entry `g · C + j` of that row, because both indices have the same
  row-major position, `p · N + (g · C + j) = (p · B + g) · C + j`. The lemmas below read, at one index,

  * the shape cast `[A, N] → [A, B, C]` and the cast back (`split_apply`, `merge_apply`);
  * a per-group value kept on a unit axis, `[A, B] → [A, B, 1]`, and spread over the lanes,
    `[A, B, 1] → [A, B, C]` (`keep_apply`, `spread_lanes_apply`): what a `keepdims` reduction is followed by;
  * a per-group parameter `[1, B] → [1, B, 1]` spread over rows and lanes, `[1, B, 1] → [A, B, C]`
    (`keep_row_apply`, `spread_groups_apply`), and a per-column one `[1, N] → [A, N]` (`spread_rows_apply`);
  * a sum over the lane axis of `[A, B, C]` on the extended reals, as the sum over `Fin C` (`lane_sum_apply`).

  All are stated over arbitrary extents, with every index built from its coordinates by `ix2` / `ix3`.
-/
import Idealize.ShloMosaic.Lib.Pipeline.Value
import Idealize.ShloMosaic.Lib.ValueIdx
import Idealize.ShloMosaic.PureOps.Ideal.Laws

namespace Cert.LibGroupAxes

open Idealize.ShloMosaic Idealize.ShloMosaic.ValueIdx

variable {α : Type} {A B C N : Nat}

/-- `[A, N] → [A, B, C]` at (p, g, j) is the operand at (p, q) when `q = g · C + j`. -/
theorem split_apply (hN : N = B * C) (v : (⟨2, ![A, N]⟩ : Shape).Idx → α)
    (h : (⟨2, ![A, N]⟩ : Shape).ShapeCasts ⟨3, ![A, B, C]⟩) (p : Fin A) (g : Fin B) (j : Fin C) (q : Fin N)
    (hq : q.val = g.val * C + j.val) :
    shapeCast ⟨3, ![A, B, C]⟩ v h (ix3 p g j) = v (ix2 p q) :=
  shapeCast_apply v h (ix3 p g j) (ix2 p q) (by
    rw [Shape.rowMajor_val_two, Shape.rowMajor_val_three]
    show p.val * N + q.val = (p.val * B + g.val) * C + j.val
    rw [hq, hN]; ring)

/-- `[A, B, C] → [A, N]` at (p, q) is the operand at (p, g, j) when `q = g · C + j`. -/
theorem merge_apply (hN : N = B * C) (v : (⟨3, ![A, B, C]⟩ : Shape).Idx → α)
    (h : (⟨3, ![A, B, C]⟩ : Shape).ShapeCasts ⟨2, ![A, N]⟩) (p : Fin A) (g : Fin B) (j : Fin C) (q : Fin N)
    (hq : q.val = g.val * C + j.val) :
    shapeCast ⟨2, ![A, N]⟩ v h (ix2 p q) = v (ix3 p g j) :=
  shapeCast_apply v h (ix2 p q) (ix3 p g j) (by
    rw [Shape.rowMajor_val_two, Shape.rowMajor_val_three]
    show (p.val * B + g.val) * C + j.val = p.val * N + q.val
    rw [hq, hN]; ring)

/-- `[A, B] → [A, B, 1]` at (p, g, 0) is the operand at (p, g). -/
theorem keep_apply (v : (⟨2, ![A, B]⟩ : Shape).Idx → α) (h : (⟨2, ![A, B]⟩ : Shape).ShapeCasts ⟨3, ![A, B, 1]⟩)
    (p : Fin A) (g : Fin B) :
    shapeCast ⟨3, ![A, B, 1]⟩ v h (ix3 p g (0 : Fin 1)) = v (ix2 p g) :=
  shapeCast_apply v h (ix3 p g (0 : Fin 1)) (ix2 p g) (by
    rw [Shape.rowMajor_val_two, Shape.rowMajor_val_three]
    show p.val * B + g.val = (p.val * B + g.val) * 1 + 0
    omega)

/-- `[1, B] → [1, B, 1]` at (0, g, 0) is the operand at (0, g). -/
theorem keep_row_apply (v : (⟨2, ![1, B]⟩ : Shape).Idx → α) (h : (⟨2, ![1, B]⟩ : Shape).ShapeCasts ⟨3, ![1, B, 1]⟩)
    (g : Fin B) :
    shapeCast ⟨3, ![1, B, 1]⟩ v h (ix3 (0 : Fin 1) g (0 : Fin 1)) = v (ix2 (0 : Fin 1) g) :=
  keep_apply v h (0 : Fin 1) g

/-- `[A, B, 1] → [A, B, C]` at (p, g, j) is the operand at (p, g, 0): one value for the whole group. -/
theorem spread_lanes_apply (v : (⟨3, ![A, B, 1]⟩ : Shape).Idx → α)
    (h : (⟨3, ![A, B, 1]⟩ : Shape).Broadcasts ⟨3, ![A, B, C]⟩) (p : Fin A) (g : Fin B) (j : Fin C) :
    broadcastTo ⟨3, ![A, B, C]⟩ v h (ix3 p g j) = v (ix3 p g (0 : Fin 1)) :=
  broadcastTo_apply v h (ix3 p g j) (ix3 p g (0 : Fin 1)) (fun ax => match ax with
    | ⟨0, _⟩ => by
        show p.val = if A = 1 then 0 else p.val
        split_ifs with h1
        · have := p.isLt; omega
        · rfl
    | ⟨1, _⟩ => by
        show g.val = if B = 1 then 0 else g.val
        split_ifs with h1
        · have := g.isLt; omega
        · rfl
    | ⟨2, _⟩ => by
        show 0 = if (1 : Nat) = 1 then 0 else j.val
        rw [if_pos rfl])

/-- `[1, B, 1] → [A, B, C]` at (p, g, j) is the operand at (0, g, 0): one value per group, for every row. -/
theorem spread_groups_apply (v : (⟨3, ![1, B, 1]⟩ : Shape).Idx → α)
    (h : (⟨3, ![1, B, 1]⟩ : Shape).Broadcasts ⟨3, ![A, B, C]⟩) (p : Fin A) (g : Fin B) (j : Fin C) :
    broadcastTo ⟨3, ![A, B, C]⟩ v h (ix3 p g j) = v (ix3 (0 : Fin 1) g (0 : Fin 1)) :=
  broadcastTo_apply v h (ix3 p g j) (ix3 (0 : Fin 1) g (0 : Fin 1)) (fun ax => match ax with
    | ⟨0, _⟩ => by
        show 0 = if (1 : Nat) = 1 then 0 else p.val
        rw [if_pos rfl]
    | ⟨1, _⟩ => by
        show g.val = if B = 1 then 0 else g.val
        split_ifs with h1
        · have := g.isLt; omega
        · rfl
    | ⟨2, _⟩ => by
        show 0 = if (1 : Nat) = 1 then 0 else j.val
        rw [if_pos rfl])

/-- `[1, N] → [A, N]` at (p, q) is the operand at (0, q): one value per column, for every row. -/
theorem spread_rows_apply (v : (⟨2, ![1, N]⟩ : Shape).Idx → α)
    (h : (⟨2, ![1, N]⟩ : Shape).Broadcasts ⟨2, ![A, N]⟩) (p : Fin A) (q : Fin N) :
    broadcastTo ⟨2, ![A, N]⟩ v h (ix2 p q) = v (ix2 (0 : Fin 1) q) :=
  broadcastTo_apply v h (ix2 p q) (ix2 (0 : Fin 1) q) (fun ax => match ax with
    | ⟨0, _⟩ => by
        show 0 = if (1 : Nat) = 1 then 0 else p.val
        rw [if_pos rfl]
    | ⟨1, _⟩ => by
        show q.val = if N = 1 then 0 else q.val
        split_ifs with h1
        · have := q.isLt; omega
        · rfl)

/-- On the extended reals, the sum over the lane axis of `[A, B, C]` at (p, g) is the sum of the group's `C` entries. -/
theorem lane_sum_apply {φ : FTy} (src : FVec Ideal ⟨3, ![A, B, C]⟩ φ) (acc : BitVec φ.bits)
    (h : (⟨3, ![A, B, C]⟩ : Shape).Reduces [(2 : Fin 3)] ⟨2, ![A, B]⟩) (hφ : FKind.Formats φ)
    (hacc : acc = FKind.add.neutral φ hφ) (p : Fin A) (g : Fin B) :
    multiReduction .add [(2 : Fin 3)] ⟨2, ![A, B]⟩ src acc h hφ hacc (ix2 p g) = ∑ j : Fin C, src (ix3 p g j) :=
  (Ideal.multiReduction_add_single src acc h hφ hacc (ix2 p g)).trans
    (Finset.sum_congr rfl fun k _ => congrArg src (funext fun ax => Fin.ext (by
      match ax with | ⟨0, _⟩ => rfl | ⟨1, _⟩ => rfl | ⟨2, _⟩ => rfl)))

end Cert.LibGroupAxes
-- ==== Proof.Block.lean ====
/-
  What one grid point leaves in its block is `GroupNorm.blockOut` of the blocks it is handed.

  The point's body is read stage by stage, as vectors over the block's shapes: the 256 rows of `x · Wᵀ + b`
  (the matrix product into a zero accumulator is the plain sum over the contracted axis; the rounding of its operands to
  sixteen bits is the identity on the extended reals); the same rows as 64 groups of 32 lanes; each group's mean, kept
  on a unit axis and spread back over the lanes; the centred entries; each group's variance; the normalised entry with
  its group's scale and shift; the rows flattened back; and SiLU applied twice. Every stage is read at an index built from its
  coordinates (row `p`, group `g`, lane `j`, or row `p`, column `n`).
-/
import proofs.«164858_j3556232922214_2_alg».proof.Proof.Gen.KernelIdeal.Value
import proofs.«164858_j3556232922214_2_alg».proof.Proof.GroupNorm
import proofs.«164858_j3556232922214_2_alg».proof.Proof.LibGroupAxes

noncomputable section

namespace Cert.KernelIdeal.BlockValue

open Cert.KernelIdeal Cert.KernelIdeal.Gen Cert.GroupNorm Cert.LibGroupAxes
open Idealize.ShloMosaic Idealize.ShloMosaic.ValueIdx

/-! ## The matrix product at an index -/

theorem lhs_row (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide),
    dif_pos (show (0 : Fin S256x2048.rank) ∈ dot_S256x2048_S2048x2048_S256x2048_1_0_0_1_n_n.lhsNonContracting by decide)]
  rfl

theorem rhs_col (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide),
    dif_pos (show (1 : Fin S2048x2048.rank) ∈ dot_S256x2048_S2048x2048_S256x2048_1_0_0_1_n_n.rhsNonContracting by decide)]
  rfl

/-- Into the zero accumulator, the product at (p, n) is the sum over `k` of `L (p, k) · R (k, n)`. -/
theorem matmul_at (L : FVec Ideal S256x2048 .bf16) (R : FVec Ideal S2048x2048 .bf16) (p : Fin 256) (n : Fin 2048) :
    matmul dot_S256x2048_S2048x2048_S256x2048_1_0_0_1_n_n none L R (constant (F := Ideal) S256x2048 .f32 0x00000000#32) (ix2 p n)
      = ∑ k : Fin 2048, L (ix2 p k) * R (ix2 k n) := by
  simp only [matmul]
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p n) ((contrEquiv1 dot_S256x2048_S2048x2048_S256x2048_1_0_0_1_n_n 2048 rfl rfl).symm k) = ix2 p k :=
    funext fun a => Fin.ext (by
      match a with
      | ⟨0, _⟩ => exact lhs_row _ _
      | ⟨1, _⟩ => exact (dot_S256x2048_S2048x2048_S256x2048_1_0_0_1_n_n.lhsIdx_val_of_single rfl _ _).trans hk)
  have er : dot_S256x2048_S2048x2048_S256x2048_1_0_0_1_n_n.rhsIdx (ix2 p n) ((contrEquiv1 dot_S256x2048_S2048x2048_S256x2048_1_0_0_1_n_n 2048 rfl rfl).symm k) = ix2 k n :=
    funext fun a => Fin.ext (by
      match a with
      | ⟨0, _⟩ => exact (dot_S256x2048_S2048x2048_S256x2048_1_0_0_1_n_n.rhsIdx_val_of_single rfl _ _).trans hk
      | ⟨1, _⟩ => exact rhs_col _ _)
  rw [el, er]

/-! ## The body's stages, as vectors over the block -/

variable (P0 : Vec Ideal S256x2048 .f32) (P1 : Vec Ideal S2048x2048 .bf16) (P2 : Vec Ideal S1x2048 .f32)
  (P3 P4 : Vec Ideal S1x64 .f32) (P5 : Vec Ideal S1x2048 .f32)

/-- The block's rows of `x · Wᵀ + b`. -/
def product : FVec Ideal S256x2048 .f32 :=
  addf (matmul dot_S256x2048_S2048x2048_S256x2048_1_0_0_1_n_n none (truncf .bf16 P0 bitsLt_bf16_f32 : FVec Ideal S256x2048 .bf16)
      (shapeCast S2048x2048 P1 shapeCasts_S2048x2048_S2048x2048 : FVec Ideal S2048x2048 .bf16)
      (constant S256x2048 .f32 0x00000000#32))
    (broadcastTo S256x2048 (shapeCast S1x2048 P2 shapeCasts_S1x2048_S1x2048) broadcasts_S1x2048_S256x2048)

/-- The same rows as 64 groups of 32 lanes. -/
def groups : FVec Ideal S256x64x32 .f32 := shapeCast S256x64x32 (product P0 P1 P2) shapeCasts_S256x2048_S256x64x32

/-- Each group's mean, on a unit axis. -/
def means : FVec Ideal S256x64x1 .f32 :=
  divf (shapeCast S256x64x1 (multiReduction .add [2] S256x64 (groups P0 P1 P2) 0x00000000#32 reduces_S256x64x32_S256x64 (.inl rfl) rfl)
      shapeCasts_S256x64_S256x64x1)
    (broadcast S256x64x1 (Scalar.ofBits .f32 0x42000000#32))

/-- The entries with their group's mean taken off. -/
def centredv : FVec Ideal S256x64x32 .f32 :=
  subf (groups P0 P1 P2) (broadcastTo S256x64x32 (means P0 P1 P2) broadcasts_S256x64x1_S256x64x32)

/-- Each group's variance, on a unit axis. -/
def variances : FVec Ideal S256x64x1 .f32 :=
  divf (shapeCast S256x64x1 (multiReduction .add [2] S256x64 (mulf (centredv P0 P1 P2) (centredv P0 P1 P2)) 0x00000000#32
        reduces_S256x64x32_S256x64 (.inl rfl) rfl) shapeCasts_S256x64_S256x64x1)
    (broadcast S256x64x1 (Scalar.ofBits .f32 0x42000000#32))

/-- The normalised entries, scaled and shifted group by group. -/
def normedv : FVec Ideal S256x64x32 .f32 :=
  addf (mulf (mulf (centredv P0 P1 P2)
        (broadcastTo S256x64x32 (rsqrt (addf (variances P0 P1 P2) (broadcast S256x64x1 (Scalar.ofBits .f32 0x3727C5AC#32))))
          broadcasts_S256x64x1_S256x64x32))
      (broadcastTo S256x64x32 (shapeCast S1x64x1 (shapeCast S1x64 P3 shapeCasts_S1x64_S1x64) shapeCasts_S1x64_S1x64x1)
        broadcasts_S1x64x1_S256x64x32))
    (broadcastTo S256x64x32 (shapeCast S1x64x1 (shapeCast S1x64 P4 shapeCasts_S1x64_S1x64) shapeCasts_S1x64_S1x64x1)
      broadcasts_S1x64x1_S256x64x32)

/-- The rows flattened back to 2048 columns. -/
def flat : FVec Ideal S256x2048 .f32 := shapeCast S256x2048 (normedv P0 P1 P2 P3 P4) shapeCasts_S256x64x32_S256x2048

/-- The body's value up to the first SiLU is these stages composed. -/
theorem pay2_eq : k0_pay2 P0 P1 P2 P3 P4 = mulf (flat P0 P1 P2 P3 P4) (logistic (flat P0 P1 P2 P3 P4)) := rfl

/-! ## Each stage at an index -/

/-- Row `p` of the block's `x · Wᵀ + b`. -/
abbrev blockRow (p : Fin 256) : Fin 2048 → EReal :=
  affine (fun k => P0 (ix2 p k)) (fun k n' => P1 (ix2 k n')) (fun n' => P2 (ix2 (0 : Fin 1) n'))

/-- Group `g` of that row. -/
abbrev blockGroup (p : Fin 256) (g : Fin 64) : Fin 32 → EReal := fun j => blockRow P0 P1 P2 p (col g j)

theorem product_at (p : Fin 256) (n : Fin 2048) : product P0 P1 P2 (ix2 p n) = blockRow P0 P1 P2 p n := by
  have h1 : matmul dot_S256x2048_S2048x2048_S256x2048_1_0_0_1_n_n none (truncf .bf16 P0 bitsLt_bf16_f32 : FVec Ideal S256x2048 .bf16)
      (shapeCast S2048x2048 P1 shapeCasts_S2048x2048_S2048x2048 : FVec Ideal S2048x2048 .bf16)
      (constant (F := Ideal) S256x2048 .f32 0x00000000#32) (ix2 p n) = ∑ k : Fin 2048, P0 (ix2 p k) * P1 (ix2 k n) := by
    rw [matmul_at, shapeCast_self]
    rfl
  have h2 : broadcastTo S256x2048 (shapeCast S1x2048 P2 shapeCasts_S1x2048_S1x2048) broadcasts_S1x2048_S256x2048 (ix2 p n)
      = P2 (ix2 (0 : Fin 1) n) := by
    rw [shapeCast_self]
    exact spread_rows_apply P2 broadcasts_S1x2048_S256x2048 p n
  unfold product
  exact congrArg₂ (fun a b : EReal => a + b) h1 h2

theorem groups_at (p : Fin 256) (g : Fin 64) (j : Fin 32) : groups P0 P1 P2 (ix3 p g j) = blockGroup P0 P1 P2 p g j := by
  unfold groups
  exact (split_apply (by decide : 2048 = 64 * 32) (product P0 P1 P2) shapeCasts_S256x2048_S256x64x32 p g j (col g j) rfl).trans
    (product_at P0 P1 P2 p (col g j))

theorem means_at (p : Fin 256) (g : Fin 64) : means P0 P1 P2 (ix3 p g (0 : Fin 1)) = mean (blockGroup P0 P1 P2 p g) := by
  have h1 : shapeCast S256x64x1 (multiReduction .add [2] S256x64 (groups P0 P1 P2) 0x00000000#32 reduces_S256x64x32_S256x64 (.inl rfl) rfl)
      shapeCasts_S256x64_S256x64x1 (ix3 p g (0 : Fin 1)) = ∑ j : Fin 32, blockGroup P0 P1 P2 p g j :=
    (keep_apply _ shapeCasts_S256x64_S256x64x1 p g).trans
      ((lane_sum_apply (groups P0 P1 P2) _ reduces_S256x64x32_S256x64 _ _ p g).trans
        (Finset.sum_congr rfl fun j _ => groups_at P0 P1 P2 p g j))
  unfold means
  exact congrArg (fun s : EReal => Ideal.div s groupSize) h1

theorem centred_at (p : Fin 256) (g : Fin 64) (j : Fin 32) :
    centredv P0 P1 P2 (ix3 p g j) = centred (blockGroup P0 P1 P2 p g) j := by
  have h2 : broadcastTo S256x64x32 (means P0 P1 P2) broadcasts_S256x64x1_S256x64x32 (ix3 p g j) = mean (blockGroup P0 P1 P2 p g) :=
    (spread_lanes_apply (means P0 P1 P2) broadcasts_S256x64x1_S256x64x32 p g j).trans (means_at P0 P1 P2 p g)
  unfold centredv
  exact congrArg₂ (fun a b : EReal => a - b) (groups_at P0 P1 P2 p g j) h2

theorem variances_at (p : Fin 256) (g : Fin 64) :
    variances P0 P1 P2 (ix3 p g (0 : Fin 1)) = variance (blockGroup P0 P1 P2 p g) := by
  have h1 : shapeCast S256x64x1 (multiReduction .add [2] S256x64 (mulf (centredv P0 P1 P2) (centredv P0 P1 P2)) 0x00000000#32
      reduces_S256x64x32_S256x64 (.inl rfl) rfl) shapeCasts_S256x64_S256x64x1 (ix3 p g (0 : Fin 1))
      = ∑ j : Fin 32, centred (blockGroup P0 P1 P2 p g) j * centred (blockGroup P0 P1 P2 p g) j :=
    (keep_apply _ shapeCasts_S256x64_S256x64x1 p g).trans
      ((lane_sum_apply (mulf (centredv P0 P1 P2) (centredv P0 P1 P2)) _ reduces_S256x64x32_S256x64 _ _ p g).trans
        (Finset.sum_congr rfl fun j _ =>
          congrArg₂ (fun a b : EReal => a * b) (centred_at P0 P1 P2 p g j) (centred_at P0 P1 P2 p g j)))
  unfold variances
  exact congrArg (fun s : EReal => Ideal.div s groupSize) h1

theorem normed_at (p : Fin 256) (g : Fin 64) (j : Fin 32) :
    normedv P0 P1 P2 P3 P4 (ix3 p g j)
      = normed (blockGroup P0 P1 P2 p g) (P3 (ix2 (0 : Fin 1) g)) (P4 (ix2 (0 : Fin 1) g)) j := by
  have hr : broadcastTo S256x64x32 (rsqrt (addf (variances P0 P1 P2) (broadcast S256x64x1 (Scalar.ofBits (F := Ideal) .f32 0x3727C5AC#32))))
      broadcasts_S256x64x1_S256x64x32 (ix3 p g j) = Ideal.rsqrt (variance (blockGroup P0 P1 P2 p g) + eps) :=
    (spread_lanes_apply _ broadcasts_S256x64x1_S256x64x32 p g j).trans
      (congrArg (fun v : EReal => Ideal.rsqrt (v + eps)) (variances_at P0 P1 P2 p g))
  have hγ : broadcastTo S256x64x32 (shapeCast S1x64x1 (shapeCast S1x64 P3 shapeCasts_S1x64_S1x64) shapeCasts_S1x64_S1x64x1)
      broadcasts_S1x64x1_S256x64x32 (ix3 p g j) = P3 (ix2 (0 : Fin 1) g) := by
    rw [shapeCast_self]
    exact (spread_groups_apply _ broadcasts_S1x64x1_S256x64x32 p g j).trans (keep_row_apply P3 shapeCasts_S1x64_S1x64x1 g)
  have hβ : broadcastTo S256x64x32 (shapeCast S1x64x1 (shapeCast S1x64 P4 shapeCasts_S1x64_S1x64) shapeCasts_S1x64_S1x64x1)
      broadcasts_S1x64x1_S256x64x32 (ix3 p g j) = P4 (ix2 (0 : Fin 1) g) := by
    rw [shapeCast_self]
    exact (spread_groups_apply _ broadcasts_S1x64x1_S256x64x32 p g j).trans (keep_row_apply P4 shapeCasts_S1x64_S1x64x1 g)
  unfold normedv
  exact congrArg₂ (fun a b : EReal => a + b)
    (congrArg₂ (fun a b : EReal => a * b)
      (congrArg₂ (fun a b : EReal => a * b) (centred_at P0 P1 P2 p g j) hr) hγ) hβ

theorem flat_at (p : Fin 256) (n : Fin 2048) :
    flat P0 P1 P2 P3 P4 (ix2 p n)
      = normed (blockGroup P0 P1 P2 p (grp n)) (P3 (ix2 (0 : Fin 1) (grp n))) (P4 (ix2 (0 : Fin 1) (grp n))) (lane n) := by
  unfold flat
  exact (merge_apply (by decide : 2048 = 64 * 32) (normedv P0 P1 P2 P3 P4) shapeCasts_S256x64x32_S256x2048 p (grp n) (lane n) n
      (by rw [grp_val, lane_val]; omega)).trans
    (normed_at P0 P1 P2 P3 P4 p (grp n) (lane n))

/-- The body's value up to the first SiLU, at row `p`, column `n`. -/
theorem pay2_at (p : Fin 256) (n : Fin 2048) :
    k0_pay2 P0 P1 P2 P3 P4 (ix2 p n)
      = silu (normed (blockGroup P0 P1 P2 p (grp n)) (P3 (ix2 (0 : Fin 1) (grp n))) (P4 (ix2 (0 : Fin 1) (grp n))) (lane n)) := by
  rw [pay2_eq]
  exact congrArg silu (flat_at P0 P1 P2 P3 P4 p n)

/-- What the point leaves at row `p`, column `n` of its block. -/
theorem block_at (p : Fin 256) (n : Fin 2048) :
    Cert.KernelIdeal.Value.E6 P0 P1 P2 P3 P4 P5 (ix2 p n) = blockOut P0 P1 P2 P3 P4 P5 p n := by
  have e0 : Cert.KernelIdeal.Value.ix6_0 (ix2 p n) = ix2 p n := funext fun a => Fin.ext (by
    match a with | ⟨0, _⟩ => rfl | ⟨1, _⟩ => rfl)
  have e1 : Cert.KernelIdeal.Value.ix6_1 (ix2 p n) = ix2 (0 : Fin 1) n := funext fun a => Fin.ext (by
    match a with | ⟨0, _⟩ => rfl | ⟨1, _⟩ => rfl)
  have e2 : Cert.KernelIdeal.Value.ix6_2 (ix2 p n) = ix2 p n := funext fun a => Fin.ext (by
    match a with | ⟨0, _⟩ => rfl | ⟨1, _⟩ => rfl)
  have e3 : Cert.KernelIdeal.Value.ix6_3 (ix2 p n) = ix2 (0 : Fin 1) n := funext fun a => Fin.ext (by
    match a with | ⟨0, _⟩ => rfl | ⟨1, _⟩ => rfl)
  dsimp only [Cert.KernelIdeal.Value.E6]
  rw [e0, e1, e2, e3, pay2_at]
  rfl

end Cert.KernelIdeal.BlockValue

end
-- ==== Proof.Array.lean ====
/-
  The kernel's result array is `GroupNorm.fused` of its six arguments.

  Grid point `t` is handed rows `256 t … 256 t + 255` of `x`, and the other five arrays whole, as the host left them
  before the launch: the weight transposed (entry (k, n) of what the kernel holds is `W (n, k)`; its rounding to sixteen
  bits is the identity on the extended reals), and the bias, the groups' scales and shifts and the columns' weights each
  re-laid as one row (entry (0, n) is entry `n`). So what point `t` leaves at row `p`, column `n` of its block —
  `GroupNorm.blockOut` of those blocks — is `fusedAt` at row `256 t + p`, column `n`: the point writes back block `t` of
  `fused`. Row `r` lies in the block of point `r / 256`, so the 64 blocks cover the array, and the array ends holding
  `fused` everywhere.
-/
import proofs.«164858_j3556232922214_2_alg».proof.Proof.Gen.KernelIdeal.Value
import proofs.«164858_j3556232922214_2_alg».proof.Proof.Block
import Idealize.ShloMosaic.Lib.StableHlo.Run

noncomputable section

namespace Cert.KernelIdeal.ArrayValue

open Cert.KernelIdeal Cert.KernelIdeal.Gen Cert.GroupNorm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result: `fused` of the arguments as launched. -/
abbrev result (c : Dev nD) : Buf (Elt Ideal) ((c : Thread nD τ).loc main_v6) :=
  fused (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The arrays the host leaves for the launch -/

/-- The weight the kernel holds is the transpose: entry (k, n) is `W (n, k)`. -/
theorem weight_entry (c : Dev nD) (k n : Fin 2048) :
    (V m c main_v1 : S2048x2048.Idx → EReal) (ix2 k n)
      = (m ((c : Thread nD τ).loc main_arg1) : S2048x2048.Idx → EReal) (ix2 n k) := by
  have e : (V m c main_v1 : S2048x2048.Idx → EReal)
      = truncf (F := Ideal) .bf16 (transpose S2048x2048 [1, 0] (m ((c : Thread nD τ).loc main_arg1)) transposes_S2048x2048_S2048x2048_1_0)
          bitsLt_bf16_f32 := by
    dsimp only [Gen.V, Gen.hostOps0]; after_results
  rw [e]
  exact transpose_apply [1, 0] _ transposes_S2048x2048_S2048x2048_1_0 (ix2 k n) (ix2 n k)
    (fun b => match b with | ⟨0, _⟩ => rfl | ⟨1, _⟩ => rfl)

/-- A vector of 2048 entries re-laid as one row: entry (0, n) is entry `n`. -/
theorem row2048 (v : S2048.Idx → EReal) (n : Fin 2048) :
    shapeCast S1x2048 v shapeCasts_S2048_S1x2048 (ix2 (0 : Fin 1) n) = v (ix1 n) :=
  shapeCast_apply v shapeCasts_S2048_S1x2048 (ix2 (0 : Fin 1) n) (ix1 n) (by
    rw [Shape.rowMajor_val_one, Shape.rowMajor_val_two]
    show n.val = 0 * 2048 + n.val
    omega)

/-- A vector of 64 entries re-laid as one row. -/
theorem row64 (v : S64.Idx → EReal) (g : Fin 64) :
    shapeCast S1x64 v shapeCasts_S64_S1x64 (ix2 (0 : Fin 1) g) = v (ix1 g) :=
  shapeCast_apply v shapeCasts_S64_S1x64 (ix2 (0 : Fin 1) g) (ix1 g) (by
    rw [Shape.rowMajor_val_one, Shape.rowMajor_val_two]
    show g.val = 0 * 64 + g.val
    omega)

theorem bias_entry (c : Dev nD) (n : Fin 2048) :
    (V m c main_v2 : S1x2048.Idx → EReal) (ix2 (0 : Fin 1) n)
      = (m ((c : Thread nD τ).loc main_arg2) : S2048.Idx → EReal) (ix1 n) := by
  have e : (V m c main_v2 : S1x2048.Idx → EReal)
      = shapeCast S1x2048 (m ((c : Thread nD τ).loc main_arg2)) shapeCasts_S2048_S1x2048 := by
    dsimp only [Gen.V, Gen.hostOps0]; after_results; rfl
  rw [e]
  exact row2048 _ n

theorem scale_entry (c : Dev nD) (g : Fin 64) :
    (V m c main_v3 : S1x64.Idx → EReal) (ix2 (0 : Fin 1) g)
      = (m ((c : Thread nD τ).loc main_arg3) : S64.Idx → EReal) (ix1 g) := by
  have e : (V m c main_v3 : S1x64.Idx → EReal)
      = shapeCast S1x64 (m ((c : Thread nD τ).loc main_arg3)) shapeCasts_S64_S1x64 := by
    dsimp only [Gen.V, Gen.hostOps0]; after_results; rfl
  rw [e]
  exact row64 _ g

theorem shift_entry (c : Dev nD) (g : Fin 64) :
    (V m c main_v4 : S1x64.Idx → EReal) (ix2 (0 : Fin 1) g)
      = (m ((c : Thread nD τ).loc main_arg4) : S64.Idx → EReal) (ix1 g) := by
  have e : (V m c main_v4 : S1x64.Idx → EReal)
      = shapeCast S1x64 (m ((c : Thread nD τ).loc main_arg4)) shapeCasts_S64_S1x64 := by
    dsimp only [Gen.V, Gen.hostOps0]; after_results; rfl
  rw [e]
  exact row64 _ g

theorem gain_entry (c : Dev nD) (n : Fin 2048) :
    (V m c main_v5 : S1x2048.Idx → EReal) (ix2 (0 : Fin 1) n)
      = (m ((c : Thread nD τ).loc main_arg5) : S2048.Idx → EReal) (ix1 n) := by
  have e : (V m c main_v5 : S1x2048.Idx → EReal)
      = shapeCast S1x2048 (m ((c : Thread nD τ).loc main_arg5)) shapeCasts_S2048_S1x2048 := by
    dsimp only [Gen.V, Gen.hostOps0]; after_results; rfl
  rw [e]
  exact row2048 _ n

/-! ## The blocks a point is handed -/

/-- Where each window's block sits at point `t`, decided over the 64 points: the rows of `x` and of the result move
    with the point, the other five windows stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 64 := lt_of_lt_of_eq t.isLt N_0

/-- Row `p` of point `t`'s block is row `256 t + p` of the array. -/
def rowOf (t : Fin cfg0.N) (p : Fin 256) : Fin 16384 :=
  ⟨t.val * 256 + p.val, by have := point_lt t; have := p.isLt; omega⟩

theorem x_block (c : Dev nD) (t : Fin cfg0.N) (p : Fin 256) (k : Fin 2048) :
    (iblk m c 0 t : Vec Ideal S256x2048 .f32) (ix2 p k)
      = (m ((c : Thread nD τ).loc main_arg0) : S16384x2048.Idx → EReal) (ix2 (rowOf t p) k) := by
  obtain ⟨e0, e1, -⟩ := idx_facts t
  rw [← V_main_arg0 m c]
  unfold iblk
  rw [View.read_apply]
  show V m c main_arg0 _ = V m c main_arg0 _
  refine congrArg (V m c main_arg0) (funext fun a => Fin.ext ?_)
  match a with
  | ⟨0, _⟩ => show win0_0.index t (0 : Fin 2) * 256 + 1 * p.val = t.val * 256 + p.val; rw [e0]; omega
  | ⟨1, _⟩ => show win0_0.index t (1 : Fin 2) * 2048 + 1 * k.val = k.val; rw [e1]; omega

theorem weight_block (c : Dev nD) (t : Fin cfg0.N) (k n : Fin 2048) :
    (iblk m c 1 t : Vec Ideal S2048x2048 .bf16) (ix2 k n)
      = (m ((c : Thread nD τ).loc main_arg1) : S2048x2048.Idx → EReal) (ix2 n k) := by
  obtain ⟨-, -, e0, e1, -⟩ := idx_facts t
  rw [← weight_entry m c k n]
  unfold iblk
  rw [View.read_apply]
  show V m c main_v1 _ = V m c main_v1 _
  refine congrArg (V m c main_v1) (funext fun a => Fin.ext ?_)
  match a with
  | ⟨0, _⟩ => show win0_1.index t (0 : Fin 2) * 2048 + 1 * k.val = k.val; rw [e0]; omega
  | ⟨1, _⟩ => show win0_1.index t (1 : Fin 2) * 2048 + 1 * n.val = n.val; rw [e1]; omega

theorem bias_block (c : Dev nD) (t : Fin cfg0.N) (n : Fin 2048) :
    (iblk m c 2 t : Vec Ideal S1x2048 .f32) (ix2 (0 : Fin 1) n)
      = (m ((c : Thread nD τ).loc main_arg2) : S2048.Idx → EReal) (ix1 n) := by
  obtain ⟨-, -, -, -, e0, e1, -⟩ := idx_facts t
  rw [← bias_entry m c n]
  unfold iblk
  rw [View.read_apply]
  show V m c main_v2 _ = V m c main_v2 _
  refine congrArg (V m c main_v2) (funext fun a => Fin.ext ?_)
  match a with
  | ⟨0, _⟩ => show win0_2.index t (0 : Fin 2) * 1 + 1 * 0 = 0; rw [e0]
  | ⟨1, _⟩ => show win0_2.index t (1 : Fin 2) * 2048 + 1 * n.val = n.val; rw [e1]; omega

theorem scale_block (c : Dev nD) (t : Fin cfg0.N) (g : Fin 64) :
    (iblk m c 3 t : Vec Ideal S1x64 .f32) (ix2 (0 : Fin 1) g)
      = (m ((c : Thread nD τ).loc main_arg3) : S64.Idx → EReal) (ix1 g) := by
  obtain ⟨-, -, -, -, -, -, e0, e1, -⟩ := idx_facts t
  rw [← scale_entry m c g]
  unfold iblk
  rw [View.read_apply]
  show V m c main_v3 _ = V m c main_v3 _
  refine congrArg (V m c main_v3) (funext fun a => Fin.ext ?_)
  match a with
  | ⟨0, _⟩ => show win0_3.index t (0 : Fin 2) * 1 + 1 * 0 = 0; rw [e0]
  | ⟨1, _⟩ => show win0_3.index t (1 : Fin 2) * 64 + 1 * g.val = g.val; rw [e1]; omega

theorem shift_block (c : Dev nD) (t : Fin cfg0.N) (g : Fin 64) :
    (iblk m c 4 t : Vec Ideal S1x64 .f32) (ix2 (0 : Fin 1) g)
      = (m ((c : Thread nD τ).loc main_arg4) : S64.Idx → EReal) (ix1 g) := by
  obtain ⟨-, -, -, -, -, -, -, -, e0, e1, -⟩ := idx_facts t
  rw [← shift_entry m c g]
  unfold iblk
  rw [View.read_apply]
  show V m c main_v4 _ = V m c main_v4 _
  refine congrArg (V m c main_v4) (funext fun a => Fin.ext ?_)
  match a with
  | ⟨0, _⟩ => show win0_4.index t (0 : Fin 2) * 1 + 1 * 0 = 0; rw [e0]
  | ⟨1, _⟩ => show win0_4.index t (1 : Fin 2) * 64 + 1 * g.val = g.val; rw [e1]; omega

theorem gain_block (c : Dev nD) (t : Fin cfg0.N) (n : Fin 2048) :
    (iblk m c 5 t : Vec Ideal S1x2048 .f32) (ix2 (0 : Fin 1) n)
      = (m ((c : Thread nD τ).loc main_arg5) : S2048.Idx → EReal) (ix1 n) := by
  obtain ⟨-, -, -, -, -, -, -, -, -, -, e0, e1, -⟩ := idx_facts t
  rw [← gain_entry m c n]
  unfold iblk
  rw [View.read_apply]
  show V m c main_v5 _ = V m c main_v5 _
  refine congrArg (V m c main_v5) (funext fun a => Fin.ext ?_)
  match a with
  | ⟨0, _⟩ => show win0_5.index t (0 : Fin 2) * 1 + 1 * 0 = 0; rw [e0]
  | ⟨1, _⟩ => show win0_5.index t (1 : Fin 2) * 2048 + 1 * n.val = n.val; rw [e1]; omega

/-! ## What a point writes back -/

/-- For blocks that are rows `rows p` of `X`, the transposed `W`, and `B`, `Γ`, `Β`, `Μ` as rows, the body leaves `fusedAt` at
    row `rows p`, column `n`: stated over the blocks as variables. -/
theorem point_eq (X : S16384x2048.Idx → EReal) (W : S2048x2048.Idx → EReal) (B : S2048.Idx → EReal)
    (Γ Β : S64.Idx → EReal) (Μ : S2048.Idx → EReal)
    (x0 : Vec Ideal S256x2048 .f32) (x1 : Vec Ideal S2048x2048 .bf16) (x2 : Vec Ideal S1x2048 .f32)
    (x3 x4 : Vec Ideal S1x64 .f32) (x5 : Vec Ideal S1x2048 .f32) (rows : Fin 256 → Fin 16384)
    (h0 : ∀ (p : Fin 256) (k : Fin 2048), x0 (ix2 p k) = X (ix2 (rows p) k))
    (h1 : ∀ k n : Fin 2048, x1 (ix2 k n) = W (ix2 n k))
    (h2 : ∀ n : Fin 2048, x2 (ix2 (0 : Fin 1) n) = B (ix1 n))
    (h3 : ∀ g : Fin 64, x3 (ix2 (0 : Fin 1) g) = Γ (ix1 g))
    (h4 : ∀ g : Fin 64, x4 (ix2 (0 : Fin 1) g) = Β (ix1 g))
    (h5 : ∀ n : Fin 2048, x5 (ix2 (0 : Fin 1) n) = Μ (ix1 n))
    (p : Fin 256) (n : Fin 2048) :
    out0_6 x0 x1 x2 x3 x4 x5 (ix2 p n) = fusedAt X W B Γ Β Μ (rows p) n := by
  unfold out0_6
  rw [Cert.KernelIdeal.Value.canon6_eq]
  simp only [View.ld_unit_zero (S := S256x2048) hz, View.ld_unit_zero (S := S2048x2048) hz,
    View.ld_unit_zero (S := S1x2048) hz, View.ld_unit_zero (S := S1x64) hz]
  rw [Cert.KernelIdeal.BlockValue.block_at]
  unfold blockOut fusedAt
  simp only [h0, h1, h2, h3, h4, h5]

/-- Point `t` writes back block `t` of the result. -/
theorem flushed_eq (c : Dev nD) (t : Fin cfg0.N) :
    (dats m 0 c).flushed 6 t = ((cfg0.win 6).blk t).view.read (Elt Ideal) (result m c) := by
  obtain ⟨-, -, -, -, -, -, -, -, -, -, -, -, e0, e1⟩ := idx_facts t
  rw [Cert.KernelIdeal.Value.flushed6]
  funext y
  obtain ⟨p, n, rfl⟩ : ∃ (p : Fin 256) (n : Fin 2048), y = ix2 p n := ⟨y 0, y 1, @eq_ix2 256 2048 y⟩
  rw [View.read_apply]
  have e : ((cfg0.win 6).blk t).view.emb (ix2 p n) = ix2 (rowOf t p) n := funext fun a => Fin.ext (by
    match a with
    | ⟨0, _⟩ => show win0_6.index t (0 : Fin 2) * 256 + 1 * p.val = t.val * 256 + p.val; rw [e0]; omega
    | ⟨1, _⟩ => show win0_6.index t (1 : Fin 2) * 2048 + 1 * n.val = n.val; rw [e1]; omega)
  rw [e]
  show out0_6 (iblk m c 0 t) (iblk m c 1 t) (iblk m c 2 t) (iblk m c 3 t) (iblk m c 4 t) (iblk m c 5 t) (ix2 p n)
    = fusedAt _ _ _ _ _ _ (rowOf t p) n
  exact point_eq _ _ _ _ _ _ (iblk m c 0 t) (iblk m c 1 t) (iblk m c 2 t) (iblk m c 3 t) (iblk m c 4 t) (iblk m c 5 t)
    (rowOf t) (x_block m c t) (weight_block m c t) (bias_block m c t) (scale_block m c t) (shift_block m c t)
    (gain_block m c t) p n

/-! ## The array after the run -/

/-- Every row lies in some point's block, so the array ends holding the result everywhere. -/
theorem final (c : Dev nD) : (dats m 0 c).arrAt 6 cfg0.N = result m c :=
  (dats m 0 c).arrAt_eq_of_cover 6 (result m c) (fun t _ => flushed_eq m c t) fun i => by
    have hi0 : (i 0).val < 16384 := (i 0).isLt
    have hi1 : (i 1).val < 2048 := (i 1).isLt
    have hN : cfg0.N = 64 := N_0
    obtain ⟨t, ht⟩ : ∃ t : Fin cfg0.N, t.val = (i 0).val / 256 := ⟨⟨(i 0).val / 256, by rw [hN]; omega⟩, rfl⟩
    obtain ⟨-, -, -, -, -, -, -, -, -, -, -, -, e0, e1⟩ := idx_facts t
    refine ⟨t, flush0_6 t, ?_⟩
    show i ∈ ((View.whole main_v6).slice (win0_6.rect t)).set
    rw [View.set_slice_whole, Rect.mem_set_unit]
    intro a
    match a with
    | ⟨0, _⟩ =>
      show win0_6.index t (0 : Fin 2) * 256 ≤ (i 0).val ∧ (i 0).val < win0_6.index t (0 : Fin 2) * 256 + 256
      rw [e0, ht]; omega
    | ⟨1, _⟩ =>
      show win0_6.index t (1 : Fin 2) * 2048 ≤ (i 1).val ∧ (i 1).val < win0_6.index t (1 : Fin 2) * 2048 + 2048
      rw [e1]; omega

/-- The kernel's run: the result array ends at `fused` of the arguments, and the arguments are unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.ArrayValue

end
-- ==== Proof.lean ====
/-
  A fused matrix product, group normalisation and double SiLU, against its plain reference, on the extended reals.

  Both programs compute, for `x : [16384, 2048]`, `W : [2048, 2048]`, `b, μ : [2048]` and `γ, β : [64]`: the rows of
  `x · Wᵀ + b`; each row's 64 groups of 32 consecutive columns normalised by the group's own mean and biased variance,
  `(y − mean) · rsqrt (variance + ε) · γ + β`; and then `silu (silu (·) · μ)` with `silu a = a · σ(a)`
  (`Proof/GroupNorm.lean`: `fused`).

  The kernel works on 64 blocks of 256 rows, with the weight transposed beforehand, and takes the logistic function
  `σ` as one operation; the reference works on the whole array and spells `σ(a)` as `1 / (1 + e^(−a))`. On the
  extended reals these are the same operations in the same order, entry by entry: the two matrix products are the same sum
  over the contracted axis, the group sums the same sums of 32 entries, the divisor `32` and `ε` the same words, and `σ` is
  by definition that quotient. No law is used that could fail at an infinity, so the precondition (finite inputs) is never
  opened.

  * `Proof/Reference.lean`: the reference's result array is `fused` of its arguments;
  * `Proof/Block.lean`: what a grid point leaves in its block, from the blocks it is handed;
  * `Proof/Array.lean`: the blocks are rows of the arguments, the 64 blocks cover the result, so the kernel's result array
    is `fused` of its arguments;
  * `Proof/LibGroupAxes.lean`: a trailing axis read as groups of lanes, at an index.

  The kernel as printed and its reading on the extended reals are the same text (the idealisation rewrote nothing), so
  `preserves` has nothing to state; the three frames are the generated ones, the reference's being its run with the result
  dropped.
-/
import proofs.«164858_j3556232922214_2_alg».proof.Defs
import proofs.«164858_j3556232922214_2_alg».proof.Proof.Gen.Kernel
import proofs.«164858_j3556232922214_2_alg».proof.Proof.Gen.Kernel.Skeleton
import proofs.«164858_j3556232922214_2_alg».proof.Proof.Gen.Kernel.Launch
import proofs.«164858_j3556232922214_2_alg».proof.Proof.Gen.Kernel.Points
import proofs.«164858_j3556232922214_2_alg».proof.Proof.Gen.Kernel.Frame
import proofs.«164858_j3556232922214_2_alg».proof.Proof.Gen.KernelIdeal
import proofs.«164858_j3556232922214_2_alg».proof.Proof.Gen.KernelIdeal.Skeleton
import proofs.«164858_j3556232922214_2_alg».proof.Proof.Gen.KernelIdeal.Launch
import proofs.«164858_j3556232922214_2_alg».proof.Proof.Gen.KernelIdeal.Points
import proofs.«164858_j3556232922214_2_alg».proof.Proof.Gen.KernelIdeal.Frame
import proofs.«164858_j3556232922214_2_alg».proof.Proof.Gen.ReferenceIdeal
import proofs.«164858_j3556232922214_2_alg».proof.Proof.Gen.KernelIdeal.Value
import proofs.«164858_j3556232922214_2_alg».proof.Proof.Gen.ReferenceIdeal.Run
import proofs.«164858_j3556232922214_2_alg».proof.Proof.Gen.ReferenceIdeal.Read
import proofs.«164858_j3556232922214_2_alg».proof.Proof.Gen.Pre_finite_inputs
import proofs.«164858_j3556232922214_2_alg».proof.Proof.Reference
import proofs.«164858_j3556232922214_2_alg».proof.Proof.Array
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference launches no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments, both runs end with the result array at `fused` of those arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
